-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg7 : FVec F S4096x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  main_v38

def fn_part1 {F : FTy → Type} [FloatOps F] (main_arg4 : FVec F S4096 .f32) (main_arg5 : FVec F S4096x4096 .f32) (main_arg6 : FVec F S4096x4096 .f32) (main_arg7 : FVec F S4096x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_v33

def fn {F : FTy → Type} [FloatOps F] (main_arg0 : FVec F S8192x4096 .f32) (main_arg1 : FVec F S4096 .f32) (main_arg2 : FVec F S4096 .f32) (main_arg3 : FVec F S4096 .f32) (main_arg4 : FVec F S4096 .f32) (main_arg5 : FVec F S4096x4096 .f32) (main_arg6 : FVec F S4096x4096 .f32) (main_arg7 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S8192x4096 : Shape := ⟨2, ![8192, 4096]⟩
abbrev S4096 : Shape := ⟨1, ![4096]⟩
abbrev S4096x4096 : Shape := ⟨2, ![4096, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 16
  | .vmem => 27
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x4096, .bf16⟩
  | .hbm, ⟨10, _⟩ => ⟨S4096x4096, .bf16⟩
  | .hbm, ⟨11, _⟩ => ⟨S8192x4096, .bf16⟩
  | .hbm, ⟨12, _⟩ => ⟨S8192x4096, .f32⟩
  | .hbm, ⟨13, _⟩ => ⟨S8192x4096, .bf16⟩
  | .hbm, ⟨14, _⟩ => ⟨S8192x4096, .f32⟩
  | .hbm, ⟨15, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096, .f32⟩
  | .local _ .vmem, ⟨3, _⟩ => ⟨S4096x4096, .bf16⟩
  | .local _ .vmem, ⟨4, _⟩ => ⟨S4096, .f32⟩
  | .local _ .vmem, ⟨5, _⟩ => ⟨S128x4096, .bf16⟩
  | .local _ .vmem, ⟨6, _⟩ => ⟨S128x4096, .bf16⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S128x4096, .f32⟩
  | .local _ .vmem, ⟨12, _⟩ => ⟨S128x4096, .f32⟩
  | .local _ .vmem, ⟨13, _⟩ => ⟨S4096x4096, .bf16⟩
  | .local _ .vmem, ⟨14, _⟩ => ⟨S4096, .f32⟩
  | .local _ .vmem, ⟨15, _⟩ => ⟨S128x4096, .bf16⟩
  | .local _ .vmem, ⟨16, _⟩ => ⟨S128x4096, .bf16⟩
  | .local _ .vmem, ⟨17, _⟩ => ⟨S128x4096, .f32⟩
  | .local _ .vmem, ⟨18, _⟩ => ⟨S128x4096, .f32⟩
  | .local _ .vmem, ⟨19, _⟩ => ⟨S128x4096, .bf16⟩
  | .local _ .vmem, ⟨20, _⟩ => ⟨S128x4096, .bf16⟩
  | .local _ .vmem, ⟨21, _⟩ => ⟨S128x4096, .f32⟩
  | .local _ .vmem, ⟨22, _⟩ => ⟨S128x4096, .f32⟩
  | .local _ .vmem, ⟨23, _⟩ => ⟨S4096x4096, .bf16⟩
  | .local _ .vmem, ⟨24, _⟩ => ⟨S4096, .f32⟩
  | .local _ .vmem, ⟨25, _⟩ => ⟨S128x4096, .f32⟩
  | .local _ .vmem, ⟨26, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S128x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  packedbf16_S128x4096_S128x4096_0_0 : (Rect.unit (s := S128x4096) ![0, 0] S128x4096.size inb_S128x4096_S128x4096_0_0).PackedRows (EltTy.packing .bf16)
  shapeCasts_S128x4096_S128x4096 : S128x4096.ShapeCasts S128x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x4096.size a ≤ S4096x4096.size a
  hwx0_2 : ∀ i : grid0.Coords, EltTy.bits .bf16 = 32 ∨ (Rect.block (s := S4096x4096) S4096x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .bf16 = 32 ∨ (Rect.block (s := S8192x4096) S128x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .bf16 = 32 ∨ (Rect.block (s := S8192x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S8192x4096.size a
  hwx1_1 : ∀ i : grid1.Coords, EltTy.bits .f32 = 32 ∨ (Rect.block (s := S8192x4096) S128x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x4096.size a ≤ S4096x4096.size a
  hwx1_2 : ∀ i : grid1.Coords, EltTy.bits .bf16 = 32 ∨ (Rect.block (s := S4096x4096) S4096x4096.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096.size a ≤ S4096.size a
  hwx1_3 : ∀ i : grid1.Coords, EltTy.bits .f32 = 32 ∨ (Rect.block (s := S4096) S4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x4096.size a ≤ S8192x4096.size a
  hwx1_4 : ∀ i : grid1.Coords, EltTy.bits .bf16 = 32 ∨ (Rect.block (s := S8192x4096) S128x4096.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S8192x4096.size a
  hwx1_5 : ∀ i : grid1.Coords, EltTy.bits .f32 = 32 ∨ (Rect.block (s := S8192x4096) S128x4096.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x4096.size a ≤ S8192x4096.size a
  hwx2_0 : ∀ i : grid2.Coords, EltTy.bits .bf16 = 32 ∨ (Rect.block (s := S8192x4096) S128x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x4096.size a ≤ S8192x4096.size a
  hwx2_1 : ∀ i : grid2.Coords, EltTy.bits .f32 = 32 ∨ (Rect.block (s := S8192x4096) S128x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x4096.size a ≤ S4096x4096.size a
  hwx2_2 : ∀ i : grid2.Coords, EltTy.bits .bf16 = 32 ∨ (Rect.block (s := S4096x4096) S4096x4096.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096.size a ≤ S4096.size a
  hwx2_3 : ∀ i : grid2.Coords, EltTy.bits .f32 = 32 ∨ (Rect.block (s := S4096) S4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S128x4096.size a ≤ S8192x4096.size a
  hwx2_4 : ∀ i : grid2.Coords, EltTy.bits .f32 = 32 ∨ (Rect.block (s := S8192x4096) S128x4096.size (cc2_transform_4 i) (hinb2_4 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S128x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S128x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4_0) S128x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_1) S128x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S4096x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S128x4096.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096 : Shape := ⟨1, ![4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 81
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x4096, .f32⟩
  | .hbm, ⟨59, _⟩ => ⟨S8192x4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1, .f32⟩
  | .hbm, ⟨76, _⟩ => ⟨S8192x4096, .f32⟩
  | .hbm, ⟨77, _⟩ => ⟨S8192x4096, .f32⟩
  | .hbm, ⟨78, _⟩ => ⟨S1x4096, .f32⟩
  | .hbm, ⟨79, _⟩ => ⟨S8192x4096, .f32⟩
  | .hbm, ⟨80, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelRun.lean ====
/-
  The idealized kernel's run with its result named.

  The program is a stretch of host operations (the three weights' change of format) and three regions.  Every weakly fair
  execution terminates, nothing faulting, with every buffer that outlives the regions at the contents the last region
  leaves; read at the result buffer and at the eight arguments, that is: the result at the last boundary's contents
  `W4`, the arguments as launched.
-/
import proofs.«149822_j45354854645975_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the last
    region leaves and the argument arrays as launched. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.ValueRun

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Layers.lean ====
/-
  The layers both programs compute, row by row, on the extended reals.

  A row `r` of 4096 entries has the inverse root-mean-square `(∑ r² / 4096 + ε)^(-1/2)`, where `4096` and `ε` are the
  two float words both programs carry.  NORMALISING a matrix scales each entry by its row's inverse root-mean-square and
  by the gain of its column; MIXING a matrix `Y` with a square matrix `w` and adding a residual `R` gives
  `(Y · w) + R`; the rectifier takes `max(x, 0)`.  Every entry of a result depends on ONE row of each matrix
  operand, so the same three functions describe a block of 128 rows and the whole array of 8192 rows: the row-locality
  lemmas below say so, for any two row counts.
-/
import Idealize.ShloMosaic.PureOps.Ideal
import Idealize.ShloMosaic.Lib.ValueIdx

noncomputable section

namespace Cert.Layers

open Idealize.ShloMosaic Idealize.ShloMosaic.ValueIdx

/-- A matrix of `a` rows of 4096 entries, a row of 4096 entries, a square matrix of that order. -/
abbrev Mat (a : ℕ) : Shape := ⟨2, ![a, 4096]⟩
abbrev Row : Shape := ⟨1, ![4096]⟩
abbrev Sq : Shape := ⟨2, ![4096, 4096]⟩

/-- The inverse root-mean-square of a row: `(∑ₖ rₖ² / 4096 + ε)^(-1/2)`. -/
def invRms (r : Fin 4096 → EReal) : EReal :=
  Ideal.rsqrt (Ideal.div (∑ k : Fin 4096, r k * r k) (Ideal.ofBits .f32 0x45800000#32) + Ideal.ofBits .f32 0x358637BD#32)

/-- Each entry scaled by its row's inverse root-mean-square and by its column's gain. -/
def normA {a : ℕ} (A : (Mat a).Idx → EReal) (g : Row.Idx → EReal) : (Mat a).Idx → EReal :=
  fun i => A i * invRms (fun k => A (ix2 (i 0) k)) * g (ix1 (i 1))

/-- The product `Y · w` plus the residual `R`. -/
def mixA {a : ℕ} (Y : (Mat a).Idx → EReal) (w : Sq.Idx → EReal) (R : (Mat a).Idx → EReal) : (Mat a).Idx → EReal :=
  fun i => (∑ k : Fin 4096, Y (ix2 (i 0) k) * w (ix2 k (i 1))) + R i

/-- The rectifier, entry by entry: the maximum with the zero word's value. -/
def reluA {a : ℕ} (X : (Mat a).Idx → EReal) : (Mat a).Idx → EReal :=
  fun i => max (X i) (Ideal.ofBits .f32 0x00000000#32)

theorem normA_ix2 {a : ℕ} (A : (Mat a).Idx → EReal) (g : Row.Idx → EReal) (p : Fin a) (q : Fin 4096) :
    normA A g (ix2 p q) = A (ix2 p q) * invRms (fun k => A (ix2 p k)) * g (ix1 q) := rfl

theorem mixA_ix2 {a : ℕ} (Y : (Mat a).Idx → EReal) (w : Sq.Idx → EReal) (R : (Mat a).Idx → EReal) (p : Fin a) (q : Fin 4096) :
    mixA Y w R (ix2 p q) = (∑ k : Fin 4096, Y (ix2 p k) * w (ix2 k q)) + R (ix2 p q) := rfl

theorem reluA_ix2 {a : ℕ} (X : (Mat a).Idx → EReal) (p : Fin a) (q : Fin 4096) :
    reluA X (ix2 p q) = max (X (ix2 p q)) (Ideal.ofBits .f32 0x00000000#32) := rfl

/-! ## Row locality: row `p` of one matrix against row `P` of another -/

theorem reluA_rows {a b : ℕ} (X : (Mat a).Idx → EReal) (X' : (Mat b).Idx → EReal) (p : Fin a) (P : Fin b) (q : Fin 4096)
    (h : X (ix2 p q) = X' (ix2 P q)) : reluA X (ix2 p q) = reluA X' (ix2 P q) := by
  rw [reluA_ix2, reluA_ix2, h]

theorem normA_rows {a b : ℕ} (A : (Mat a).Idx → EReal) (B : (Mat b).Idx → EReal) (g : Row.Idx → EReal) (p : Fin a) (P : Fin b)
    (h : ∀ k : Fin 4096, A (ix2 p k) = B (ix2 P k)) (q : Fin 4096) : normA A g (ix2 p q) = normA B g (ix2 P q) := by
  rw [normA_ix2, normA_ix2, h q, show (fun k => A (ix2 p k)) = fun k => B (ix2 P k) from funext h]

theorem mixA_rows {a b : ℕ} (Y : (Mat a).Idx → EReal) (Y' : (Mat b).Idx → EReal) (w : Sq.Idx → EReal)
    (R : (Mat a).Idx → EReal) (R' : (Mat b).Idx → EReal) (p : Fin a) (P : Fin b)
    (hY : ∀ k : Fin 4096, Y (ix2 p k) = Y' (ix2 P k)) (q : Fin 4096) (hR : R (ix2 p q) = R' (ix2 P q)) :
    mixA Y w R (ix2 p q) = mixA Y' w R' (ix2 P q) := by
  rw [mixA_ix2, mixA_ix2, hR]
  exact congrArg (· + R' (ix2 P q)) (Finset.sum_congr rfl fun k _ => by rw [hY k])

/-! ## The three stages of the chain -/

/-- The first residual: the rectified input, normalised with the first gain, mixed with the first weight, plus the
    rectified input. -/
def firstResid {a : ℕ} (X : (Mat a).Idx → EReal) (g0 : Row.Idx → EReal) (w : Sq.Idx → EReal) : (Mat a).Idx → EReal :=
  mixA (normA (reluA X) g0) w (reluA X)

theorem firstResid_rows {a b : ℕ} (X : (Mat a).Idx → EReal) (X' : (Mat b).Idx → EReal) (g0 : Row.Idx → EReal) (w : Sq.Idx → EReal)
    (p : Fin a) (P : Fin b) (h : ∀ k : Fin 4096, X (ix2 p k) = X' (ix2 P k)) (q : Fin 4096) :
    firstResid X g0 w (ix2 p q) = firstResid X' g0 w (ix2 P q) :=
  mixA_rows _ _ w _ _ p P
    (fun k => normA_rows _ _ g0 p P (fun k' => reluA_rows X X' p P k' (h k')) k) q (reluA_rows X X' p P q (h q))

/-! ## The chain of the three layers on whole arrays of 8192 rows -/

/-- The residuals and activations after each weight, and the result: the third residual normalised with the last gain. -/
def resid1 (X : (Mat 8192).Idx → EReal) (g0 : Row.Idx → EReal) (w0 : Sq.Idx → EReal) : (Mat 8192).Idx → EReal :=
  firstResid X g0 w0
def act1 (X : (Mat 8192).Idx → EReal) (g0 g1 : Row.Idx → EReal) (w0 : Sq.Idx → EReal) : (Mat 8192).Idx → EReal :=
  normA (resid1 X g0 w0) g1
def resid2 (X : (Mat 8192).Idx → EReal) (g0 g1 : Row.Idx → EReal) (w0 w1 : Sq.Idx → EReal) : (Mat 8192).Idx → EReal :=
  mixA (act1 X g0 g1 w0) w1 (resid1 X g0 w0)
def act2 (X : (Mat 8192).Idx → EReal) (g0 g1 g2 : Row.Idx → EReal) (w0 w1 : Sq.Idx → EReal) : (Mat 8192).Idx → EReal :=
  normA (resid2 X g0 g1 w0 w1) g2
def resid3 (X : (Mat 8192).Idx → EReal) (g0 g1 g2 : Row.Idx → EReal) (w0 w1 w2 : Sq.Idx → EReal) : (Mat 8192).Idx → EReal :=
  mixA (act2 X g0 g1 g2 w0 w1) w2 (resid2 X g0 g1 w0 w1)
def result (X : (Mat 8192).Idx → EReal) (g0 g1 g2 g3 : Row.Idx → EReal) (w0 w1 w2 : Sq.Idx → EReal) : (Mat 8192).Idx → EReal :=
  normA (resid3 X g0 g1 g2 w0 w1 w2) g3

end Cert.Layers

end
-- ==== Proof.Payloads.lean ====
/-
  What the three kernel bodies compute from the blocks they load, on the extended reals.

  Each body works on a block of 128 rows.  The vector unit's normalisation — the row sum of squares by a reduction along
  the row, the column it makes repeated along the row, the gain vector repeated down the rows — is `normA` of the block;
  the matrix unit's product into a zero accumulator plus the residual block is `mixA`.  A change of float format is the
  identity here, so the bfloat16 copies of the activations and of the weights are the values themselves.
-/
import proofs.«149822_j45354854645975_2_alg».proof.Proof.Gen.KernelIdeal.Skeleton
import proofs.«149822_j45354854645975_2_alg».proof.Proof.LibLayout
import proofs.«149822_j45354854645975_2_alg».proof.Proof.Layers
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx Idealize.ShloMosaic.TcCoe
open Cert.Layers

/-! ## The matrix product's index bookkeeping: rows of the left operand, columns of the right -/

theorem dot_lhs_row (i : S128x4096.Idx) (q : dot_S128x4096_S4096x4096_S128x4096_1_0_0_1_n_n.contr.Idx) :
    (dot_S128x4096_S4096x4096_S128x4096_1_0_0_1_n_n.lhsIdx i q 0).val = (i 0).val := by
  unfold DotDims.lhsIdx
  rw [dif_neg (show ¬(0 : Fin S128x4096.rank) ∈ dot_S128x4096_S4096x4096_S128x4096_1_0_0_1_n_n.lhsBatch by decide),
    dif_pos (show (0 : Fin S128x4096.rank) ∈ dot_S128x4096_S4096x4096_S128x4096_1_0_0_1_n_n.lhsNonContracting by decide)]
  rfl

theorem dot_rhs_col (i : S128x4096.Idx) (q : dot_S128x4096_S4096x4096_S128x4096_1_0_0_1_n_n.contr.Idx) :
    (dot_S128x4096_S4096x4096_S128x4096_1_0_0_1_n_n.rhsIdx i q 1).val = (i 1).val := by
  unfold DotDims.rhsIdx
  rw [dif_neg (show ¬(1 : Fin S4096x4096.rank) ∈ dot_S128x4096_S4096x4096_S128x4096_1_0_0_1_n_n.rhsBatch by decide),
    dif_pos (show (1 : Fin S4096x4096.rank) ∈ dot_S128x4096_S4096x4096_S128x4096_1_0_0_1_n_n.rhsNonContracting by decide)]
  rfl

/-- The block product into a zero accumulator: entry `(p, q)` is `∑ₖ Y[p, k] · w[k, q]`. -/
theorem blockProduct_apply {φ₁ φ₂ : FTy} (Y : FVec Ideal S128x4096 φ₁) (w : FVec Ideal S4096x4096 φ₂) (p : Fin 128) (q : Fin 4096) :
    matmul dot_S128x4096_S4096x4096_S128x4096_1_0_0_1_n_n none Y w (constant S128x4096 .f32 0x00000000#32) (ix2 p q)
      = ∑ k : Fin 4096, Y (ix2 p k) * w (ix2 k q) :=
  Cert.LibLayout.matmul_rows_cols_apply dot_S128x4096_S4096x4096_S128x4096_1_0_0_1_n_n rfl rfl rfl rfl
    dot_lhs_row dot_rhs_col none Y w p q

/-! ## The two halves of a body -/

/-- The rectifier as the bodies spell it. -/
theorem rectified_eq (x : FVec Ideal S128x4096 .f32) :
    maximumf x (broadcast S128x4096 (Scalar.ofBits (F := Ideal) .f32 0x00000000#32)) = reluA (a := 128) x := rfl

/-- The vector unit's normalisation of a block `A` with the gain vector `g`, read at `(p, q)`. -/
theorem vecNorm_apply (A : FVec Ideal S128x4096 .f32) (g : FVec Ideal S4096 .f32) (p : Fin 128) (q : Fin 4096) :
    mulf (mulf A (broadcastTo S128x4096 (rsqrt (addf (divf (shapeCast S128x1
        (multiReduction .add [1] S128 (mulf A A) 0x00000000#32 reduces_S128x4096_S128 (.inl rfl) rfl) shapeCasts_S128_S128x1)
        (broadcast S128x1 (Scalar.ofBits (F := Ideal) .f32 0x45800000#32)))
        (broadcast S128x1 (Scalar.ofBits (F := Ideal) .f32 0x358637BD#32)))) broadcasts_S128x1_S128x4096))
      (broadcastTo S128x4096 (shapeCast S1x4096 g shapeCasts_S4096_S1x4096) broadcasts_S1x4096_S128x4096) (ix2 p q)
    = normA (a := 128) A g (ix2 p q) := by
  rw [normA_ix2, mulf_apply, mulf_apply, Cert.LibLayout.rowBias_apply, Cert.LibLayout.broadcastTo_a1_ab_apply]
  refine congrArg (fun s => A (ix2 p q) * s * g (ix1 q)) ?_
  show Ideal.rsqrt (Ideal.div (shapeCast S128x1
      (multiReduction .add [1] S128 (mulf A A) 0x00000000#32 reduces_S128x4096_S128 (.inl rfl) rfl) shapeCasts_S128_S128x1 (ix2 p (0 : Fin 1)))
      (Ideal.ofBits .f32 0x45800000#32) + Ideal.ofBits .f32 0x358637BD#32) = invRms fun k => A (ix2 p k)
  rw [Cert.LibLayout.shapeCast_a_a1_apply, Cert.LibLayout.sum_rows_apply]
  rfl

/-- The same normalisation as one function of the block. -/
theorem vecNorm_eq (A : FVec Ideal S128x4096 .f32) (g : FVec Ideal S4096 .f32) :
    mulf (mulf A (broadcastTo S128x4096 (rsqrt (addf (divf (shapeCast S128x1
        (multiReduction .add [1] S128 (mulf A A) 0x00000000#32 reduces_S128x4096_S128 (.inl rfl) rfl) shapeCasts_S128_S128x1)
        (broadcast S128x1 (Scalar.ofBits (F := Ideal) .f32 0x45800000#32)))
        (broadcast S128x1 (Scalar.ofBits (F := Ideal) .f32 0x358637BD#32)))) broadcasts_S128x1_S128x4096))
      (broadcastTo S128x4096 (shapeCast S1x4096 g shapeCasts_S4096_S1x4096) broadcasts_S1x4096_S128x4096)
    = normA (a := 128) A g := by
  funext j
  obtain ⟨p, q, rfl⟩ : ∃ (p : Fin 128) (q : Fin 4096), j = ix2 p q := ⟨j 0, j 1, eq_ix2 j⟩
  exact vecNorm_apply A g p q

/-- The matrix unit's product of a block with the square weight, into a zero accumulator, plus a residual block. -/
theorem blockMix_eq {φ₁ φ₂ : FTy} (Y : FVec Ideal S128x4096 φ₁) (w : FVec Ideal S4096x4096 φ₂) (R : FVec Ideal S128x4096 .f32) :
    addf (matmul dot_S128x4096_S4096x4096_S128x4096_1_0_0_1_n_n none Y w (constant S128x4096 .f32 0x00000000#32)) R
      = mixA (a := 128) Y w R := by
  funext j
  obtain ⟨p, q, rfl⟩ : ∃ (p : Fin 128) (q : Fin 4096), j = ix2 p q := ⟨j 0, j 1, eq_ix2 j⟩
  rw [mixA_ix2, addf_apply, blockProduct_apply]

/-- A change of float format of a block is the block. -/
theorem truncf_eq {φ ψ : FTy} {s : Shape} (v : FVec Ideal s φ) (h : ψ.bits < φ.bits) : (truncf ψ v h : FVec Ideal s ψ) = v := rfl

/-! ## The payloads -/

/-- The first body's residual: the rectified block, normalised, through the first weight, plus the rectified block. -/
theorem k0_pay1_eq (x : Vec Ideal S128x4096 .f32) (g0 : Vec Ideal S4096 .f32) (w : Vec Ideal S4096x4096 .bf16) :
    k0_pay1 (F := Ideal) x g0 w = firstResid (a := 128) x g0 w := by
  unfold k0_pay1 firstResid
  dsimp only
  rw [rectified_eq, vecNorm_eq, truncf_eq, shapeCast_self, blockMix_eq]

/-- The first body's activation: that residual normalised with the second gain. -/
theorem k0_pay2_eq (x : Vec Ideal S128x4096 .f32) (g0 : Vec Ideal S4096 .f32) (w : Vec Ideal S4096x4096 .bf16)
    (g1 : Vec Ideal S4096 .f32) :
    k0_pay2 (F := Ideal) x g0 w g1 = normA (a := 128) (firstResid (a := 128) x g0 w) g1 := by
  unfold k0_pay2
  dsimp only
  rw [k0_pay1_eq, vecNorm_eq, truncf_eq]

/-- A middle body's residual: the activation block through the weight, plus the residual block. -/
theorem k1_pay1_eq (y : Vec Ideal S128x4096 .bf16) (w : Vec Ideal S4096x4096 .bf16) (r : Vec Ideal S128x4096 .f32) :
    k1_pay1 (F := Ideal) y w r = mixA (a := 128) y w r := by
  unfold k1_pay1
  dsimp only
  rw [shapeCast_self, shapeCast_self, shapeCast_self, blockMix_eq]

/-- A middle body's activation: its residual normalised with its gain. -/
theorem k1_pay2_eq (y : Vec Ideal S128x4096 .bf16) (w : Vec Ideal S4096x4096 .bf16) (r : Vec Ideal S128x4096 .f32)
    (g : Vec Ideal S4096 .f32) :
    k1_pay2 (F := Ideal) y w r g = normA (a := 128) (mixA (a := 128) y w r) g := by
  unfold k1_pay2
  dsimp only
  rw [k1_pay1_eq, vecNorm_eq, truncf_eq]

/-- The last body's result: its residual, never stored, normalised with the last gain. -/
theorem k2_pay1_eq (y : Vec Ideal S128x4096 .bf16) (w : Vec Ideal S4096x4096 .bf16) (r : Vec Ideal S128x4096 .f32)
    (g : Vec Ideal S4096 .f32) :
    k2_pay1 (F := Ideal) y w r g = normA (a := 128) (mixA (a := 128) y w r) g := by
  unfold k2_pay1
  dsimp only
  rw [shapeCast_self, shapeCast_self, shapeCast_self, blockMix_eq, vecNorm_eq]

end Cert.KernelIdeal.Payloads

end
-- ==== Proof.Arrays.lean ====
/-
  From blocks to whole arrays, region by region.

  Each of the three regions walks the 64 blocks of 128 rows of its arrays.  At point `t` the blocks of the row-indexed
  windows are rows `128·t … 128·t + 127` of their arrays, and the gain vectors and the weight come whole.  What the body
  leaves in an output block depends, entry by entry, on one row of each row-indexed input; so block `t` of a layer of
  the WHOLE arrays is that layer of the blocks at `t`, and the 64 blocks cover the 8192 rows.  Hence each output array
  ends holding the layer of the arrays as the region found them — whatever those contents were.
-/
import proofs.«149822_j45354854645975_2_alg».proof.Proof.Gen.KernelIdeal.Frame
import proofs.«149822_j45354854645975_2_alg».proof.Proof.Payloads
import proofs.«149822_j45354854645975_2_alg».proof.Proof.Layers
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.ValueIdx Idealize.ShloMosaic.TcCoe Idealize.SL.Sem
open Idealize.ShloMosaic.Pipeline (Dat)
open Cert.Layers Cert.KernelIdeal.Payloads

-- The TensorCore's buffer contents when a region is entered: every statement below holds for any.
variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-! # Region 0 -/

/-- What the first body leaves in its residual block and in its activation block. -/
theorem out0_5_eq (x0 : Vec Ideal S128x4096 .f32) (x1 : Vec Ideal S4096 .f32) (x2 : Vec Ideal S4096x4096 .bf16) (x3 : Vec Ideal S4096 .f32) :
    out0_5 (F := Ideal) x0 x1 x2 x3 = firstResid (a := 128) x0 x1 x2 := by
  unfold out0_5
  rw [View.canon_unit_zero zeros2]
  simp only [View.ld_unit_zero (S := S128x4096) zeros2, View.ld_unit_zero (S := S4096) zeros1, View.ld_unit_zero (S := S4096x4096) zeros2]
  exact k0_pay1_eq x0 x1 x2

theorem out0_4_eq (x0 : Vec Ideal S128x4096 .f32) (x1 : Vec Ideal S4096 .f32) (x2 : Vec Ideal S4096x4096 .bf16) (x3 : Vec Ideal S4096 .f32) :
    out0_4 (F := Ideal) x0 x1 x2 x3 = normA (a := 128) (firstResid (a := 128) x0 x1 x2) x3 := by
  unfold out0_4
  rw [View.canon_unit_zero zeros2]
  simp only [View.ld_unit_zero (S := S128x4096) zeros2, View.ld_unit_zero (S := S4096) zeros1, View.ld_unit_zero (S := S4096x4096) zeros2]
  exact k0_pay2_eq x0 x1 x2 x3

/-- The index maps over the grid: the row-indexed windows sit at block `t`, the others at block zero. -/
theorem index0 : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of the input block at point `t` is row `128·t + p` of the input array. -/
theorem rows0_0 (c : Dev nD) (t : Fin cfg0.N) (p : Fin 128) (k : Fin 4096) (P : Fin 8192) (hP : P.val = t.val * 128 + p.val) :
    (iblk0 V c 0 t : Vec Ideal S128x4096 .f32) (ix2 p k) = (V c (Pipeline.arrRef spec0 0) : S8192x4096.Idx → EReal) (ix2 P k) := by
  obtain ⟨e0, e1, -⟩ := index0 t
  show (V c (Pipeline.arrRef spec0 0) : S8192x4096.Idx → EReal) (((cfg0.win 0).blk t).view.emb (ix2 p k)) = _
  refine congrArg _ (funext fun a => Fin.ext ?_)
  match a with
  | ⟨0, _⟩ => show win0_0.index t (0 : Fin 2) * 128 + 1 * p.val = P.val; rw [e0, hP]; omega
  | ⟨1, _⟩ => show win0_0.index t (1 : Fin 2) * 4096 + 1 * k.val = k.val; rw [e1]; omega

/-- The gain vectors and the weight come whole: their one block is the array. -/
theorem whole0_1 (c : Dev nD) (t : Fin cfg0.N) :
    (iblk0 V c 1 t : Vec Ideal S4096 .f32) = (V c (Pipeline.arrRef spec0 1) : S4096.Idx → EReal) := by
  obtain ⟨-, -, e, -⟩ := index0 t
  funext j
  show (V c (Pipeline.arrRef spec0 1) : S4096.Idx → EReal) (((cfg0.win 1).blk t).view.emb j) = _
  refine congrArg _ (funext fun a => Fin.ext ?_)
  match a with
  | ⟨0, _⟩ => show win0_1.index t (0 : Fin 1) * 4096 + 1 * (j 0).val = (j 0).val; rw [e]; omega

theorem whole0_2 (c : Dev nD) (t : Fin cfg0.N) :
    (iblk0 V c 2 t : Vec Ideal S4096x4096 .bf16) = (V c (Pipeline.arrRef spec0 2) : S4096x4096.Idx → EReal) := by
  obtain ⟨-, -, -, e0, e1, -⟩ := index0 t
  funext j
  show (V c (Pipeline.arrRef spec0 2) : S4096x4096.Idx → EReal) (((cfg0.win 2).blk t).view.emb j) = _
  refine congrArg _ (funext fun a => Fin.ext ?_)
  match a with
  | ⟨0, _⟩ => show win0_2.index t (0 : Fin 2) * 4096 + 1 * (j 0).val = (j 0).val; rw [e0]; omega
  | ⟨1, _⟩ => show win0_2.index t (1 : Fin 2) * 4096 + 1 * (j 1).val = (j 1).val; rw [e1]; omega

theorem whole0_3 (c : Dev nD) (t : Fin cfg0.N) :
    (iblk0 V c 3 t : Vec Ideal S4096 .f32) = (V c (Pipeline.arrRef spec0 3) : S4096.Idx → EReal) := by
  obtain ⟨-, -, -, -, -, e, -⟩ := index0 t
  funext j
  show (V c (Pipeline.arrRef spec0 3) : S4096.Idx → EReal) (((cfg0.win 3).blk t).view.emb j) = _
  refine congrArg _ (funext fun a => Fin.ext ?_)
  match a with
  | ⟨0, _⟩ => show win0_3.index t (0 : Fin 1) * 4096 + 1 * (j 0).val = (j 0).val; rw [e]; omega

/-- WHAT POINT `t` WRITES BACK into the residual array is block `t` of the first residual of the whole arrays. -/
theorem flushed0_5 (c : Dev nD) (t : Fin cfg0.N) :
    (dat0 V c).flushed 5 t = ((cfg0.win 5).blk t).view.read (Elt Ideal)
      (firstResid (a := 8192) (V c (Pipeline.arrRef spec0 0)) (V c (Pipeline.arrRef spec0 1)) (V c (Pipeline.arrRef spec0 2))) := by
  show (cfg0.win 5).cut (grid0.coords t) ((dat0 V c).after 5 t) = _
  rw [after0_5, out0_5_eq, whole0_1, whole0_2]
  funext j
  obtain ⟨p, q, rfl⟩ : ∃ (p : Fin 128) (q : Fin 4096), j = ix2 p q := ⟨j 0, j 1, eq_ix2 j⟩
  obtain ⟨-, -, -, -, -, -, -, -, e0, e1⟩ := index0 t
  have ht : t.val < 64 := Nat.lt_of_lt_of_eq t.isLt (show cfg0.N = 64 from N_0)
  have hemb : ((cfg0.win 5).blk t).view.emb (ix2 p q) = (ix2 (⟨t.val * 128 + p.val, by omega⟩ : Fin 8192) q : S8192x4096.Idx) :=
    funext fun a => Fin.ext (by
      match a with
      | ⟨0, _⟩ => show win0_5.index t (0 : Fin 2) * 128 + 1 * p.val = t.val * 128 + p.val; rw [e0]; omega
      | ⟨1, _⟩ => show win0_5.index t (1 : Fin 2) * 4096 + 1 * q.val = q.val; rw [e1]; omega)
  show firstResid (a := 128) (iblk0 V c 0 t) _ _ (ix2 p q)
    = firstResid (a := 8192) _ _ _ (((cfg0.win 5).blk t).view.emb (ix2 p q))
  rw [hemb]
  exact firstResid_rows _ _ _ _ p _ (fun k => rows0_0 V c t p k _ rfl) q

/-- WHAT POINT `t` WRITES BACK into the activation array is block `t` of that residual normalised with the second gain. -/
theorem flushed0_4 (c : Dev nD) (t : Fin cfg0.N) :
    (dat0 V c).flushed 4 t = ((cfg0.win 4).blk t).view.read (Elt Ideal)
      (normA (a := 8192) (firstResid (a := 8192) (V c (Pipeline.arrRef spec0 0)) (V c (Pipeline.arrRef spec0 1)) (V c (Pipeline.arrRef spec0 2)))
        (V c (Pipeline.arrRef spec0 3))) := by
  show (cfg0.win 4).cut (grid0.coords t) ((dat0 V c).after 4 t) = _
  rw [after0_4, out0_4_eq, whole0_1, whole0_2, whole0_3]
  funext j
  obtain ⟨p, q, rfl⟩ : ∃ (p : Fin 128) (q : Fin 4096), j = ix2 p q := ⟨j 0, j 1, eq_ix2 j⟩
  obtain ⟨-, -, -, -, -, -, e0, e1, -⟩ := index0 t
  have ht : t.val < 64 := Nat.lt_of_lt_of_eq t.isLt (show cfg0.N = 64 from N_0)
  have hemb : ((cfg0.win 4).blk t).view.emb (ix2 p q) = (ix2 (⟨t.val * 128 + p.val, by omega⟩ : Fin 8192) q : S8192x4096.Idx) :=
    funext fun a => Fin.ext (by
      match a with
      | ⟨0, _⟩ => show win0_4.index t (0 : Fin 2) * 128 + 1 * p.val = t.val * 128 + p.val; rw [e0]; omega
      | ⟨1, _⟩ => show win0_4.index t (1 : Fin 2) * 4096 + 1 * q.val = q.val; rw [e1]; omega)
  show normA (a := 128) (firstResid (a := 128) (iblk0 V c 0 t) _ _) _ (ix2 p q)
    = normA (a := 8192) (firstResid (a := 8192) _ _ _) _ (((cfg0.win 4).blk t).view.emb (ix2 p q))
  rw [hemb]
  exact normA_rows _ _ _ p _ (fun k' => firstResid_rows _ _ _ _ p _ (fun k => rows0_0 V c t p k _ rfl) k') q

/-- An index of an output array is in point `t`'s block iff each coordinate is in the block's range on its axis. -/
theorem mem_blk0_5 (t : Fin cfg0.N) (i : S8192x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v3_1).slice (win0_5.rect t)).set ↔ _
  rw [View.set_slice_whole, Rect.mem_set_unit]
  exact Iff.rfl

theorem mem_blk0_4 (t : Fin cfg0.N) (i : S8192x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v3_0).slice (win0_4.rect t)).set ↔ _
  rw [View.set_slice_whole, Rect.mem_set_unit]
  exact Iff.rfl

/-- The 64 blocks cover the 8192 rows: row `r` is in the block of point `r / 128`. -/
theorem covered0_5 (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  obtain ⟨t, ht⟩ : ∃ t : Fin cfg0.N, t.val = (i 0).val / 128 := ⟨⟨(i 0).val / 128, by rw [show cfg0.N = 64 from N_0]; omega⟩, rfl⟩
  obtain ⟨-, -, -, -, -, -, -, -, e0, e1⟩ := index0 t
  refine ⟨t, flush0_5 t, ?_⟩
  rw [mem_blk0_5]
  intro a
  match a with
  | ⟨0, _⟩ => show win0_5.index t (0 : Fin 2) * 128 ≤ (i 0).val ∧ (i 0).val < win0_5.index t (0 : Fin 2) * 128 + 128; rw [e0, ht]; omega
  | ⟨1, _⟩ => show win0_5.index t (1 : Fin 2) * 4096 ≤ (i 1).val ∧ (i 1).val < win0_5.index t (1 : Fin 2) * 4096 + 4096; rw [e1]; omega

theorem covered0_4 (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  obtain ⟨t, ht⟩ : ∃ t : Fin cfg0.N, t.val = (i 0).val / 128 := ⟨⟨(i 0).val / 128, by rw [show cfg0.N = 64 from N_0]; omega⟩, rfl⟩
  obtain ⟨-, -, -, -, -, -, e0, e1, -⟩ := index0 t
  refine ⟨t, flush0_4 t, ?_⟩
  rw [mem_blk0_4]
  intro a
  match a with
  | ⟨0, _⟩ => show win0_4.index t (0 : Fin 2) * 128 ≤ (i 0).val ∧ (i 0).val < win0_4.index t (0 : Fin 2) * 128 + 128; rw [e0, ht]; omega
  | ⟨1, _⟩ => show win0_4.index t (1 : Fin 2) * 4096 ≤ (i 1).val ∧ (i 1).val < win0_4.index t (1 : Fin 2) * 4096 + 4096; rw [e1]; omega

/-- REGION 0's residual array ends holding the first residual of the arrays as the region found them. -/
theorem final0_5 (c : Dev nD) : (dat0 V c).arrAt 5 cfg0.N
    = firstResid (a := 8192) (V c (Pipeline.arrRef spec0 0)) (V c (Pipeline.arrRef spec0 1)) (V c (Pipeline.arrRef spec0 2)) :=
  (dat0 V c).arrAt_eq_of_cover 5 _ (fun t _ => flushed0_5 V c t) covered0_5

/-- REGION 0's activation array ends holding that residual normalised with the second gain. -/
theorem final0_4 (c : Dev nD) : (dat0 V c).arrAt 4 cfg0.N
    = normA (a := 8192) (firstResid (a := 8192) (V c (Pipeline.arrRef spec0 0)) (V c (Pipeline.arrRef spec0 1)) (V c (Pipeline.arrRef spec0 2)))
        (V c (Pipeline.arrRef spec0 3)) :=
  (dat0 V c).arrAt_eq_of_cover 4 _ (fun t _ => flushed0_4 V c t) covered0_4

/-! # Region 1 -/

/-- What the body leaves in its output blocks: the residual is the activation block through the weight plus the residual block,
    the activation that residual normalised with the gain. -/
theorem out1_5_eq (x0 : Vec Ideal S128x4096 .bf16) (x1 : Vec Ideal S128x4096 .f32) (x2 : Vec Ideal S4096x4096 .bf16) (x3 : Vec Ideal S4096 .f32) :
    out1_5 (F := Ideal) x0 x1 x2 x3 = mixA (a := 128) x0 x2 x1 := by
  unfold out1_5
  rw [View.canon_unit_zero zeros2]
  simp only [View.ld_unit_zero (S := S128x4096) zeros2, View.ld_unit_zero (S := S4096) zeros1, View.ld_unit_zero (S := S4096x4096) zeros2]
  exact k1_pay1_eq x0 x2 x1

theorem out1_4_eq (x0 : Vec Ideal S128x4096 .bf16) (x1 : Vec Ideal S128x4096 .f32) (x2 : Vec Ideal S4096x4096 .bf16) (x3 : Vec Ideal S4096 .f32) :
    out1_4 (F := Ideal) x0 x1 x2 x3 = normA (a := 128) (mixA (a := 128) x0 x2 x1) x3 := by
  unfold out1_4
  rw [View.canon_unit_zero zeros2]
  simp only [View.ld_unit_zero (S := S128x4096) zeros2, View.ld_unit_zero (S := S4096) zeros1, View.ld_unit_zero (S := S4096x4096) zeros2]
  exact k1_pay2_eq x0 x2 x1 x3

theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of the activation block, and of the residual block, at point `t` is row `128·t + p` of its array. -/
theorem rows1_0 (c : Dev nD) (t : Fin cfg1.N) (p : Fin 128) (k : Fin 4096) (P : Fin 8192) (hP : P.val = t.val * 128 + p.val) :
    (iblk1 V c 0 t : Vec Ideal S128x4096 .bf16) (ix2 p k) = (V c (Pipeline.arrRef spec1 0) : S8192x4096.Idx → EReal) (ix2 P k) := by
  obtain ⟨e0, e1, -, -, -, -, -, -, -, -, -⟩ := index1 t
  show (V c (Pipeline.arrRef spec1 0) : S8192x4096.Idx → EReal) (((cfg1.win 0).blk t).view.emb (ix2 p k)) = _
  refine congrArg _ (funext fun a => Fin.ext ?_)
  match a with
  | ⟨0, _⟩ => show win1_0.index t (0 : Fin 2) * 128 + 1 * p.val = P.val; rw [e0, hP]; omega
  | ⟨1, _⟩ => show win1_0.index t (1 : Fin 2) * 4096 + 1 * k.val = k.val; rw [e1]; omega

theorem rows1_1 (c : Dev nD) (t : Fin cfg1.N) (p : Fin 128) (k : Fin 4096) (P : Fin 8192) (hP : P.val = t.val * 128 + p.val) :
    (iblk1 V c 1 t : Vec Ideal S128x4096 .f32) (ix2 p k) = (V c (Pipeline.arrRef spec1 1) : S8192x4096.Idx → EReal) (ix2 P k) := by
  obtain ⟨-, -, e0, e1, -, -, -, -, -, -, -⟩ := index1 t
  show (V c (Pipeline.arrRef spec1 1) : S8192x4096.Idx → EReal) (((cfg1.win 1).blk t).view.emb (ix2 p k)) = _
  refine congrArg _ (funext fun a => Fin.ext ?_)
  match a with
  | ⟨0, _⟩ => show win1_1.index t (0 : Fin 2) * 128 + 1 * p.val = P.val; rw [e0, hP]; omega
  | ⟨1, _⟩ => show win1_1.index t (1 : Fin 2) * 4096 + 1 * k.val = k.val; rw [e1]; omega

/-- The weight and the gain vector come whole. -/
theorem whole1_2 (c : Dev nD) (t : Fin cfg1.N) :
    (iblk1 V c 2 t : Vec Ideal S4096x4096 .bf16) = (V c (Pipeline.arrRef spec1 2) : S4096x4096.Idx → EReal) := by
  obtain ⟨-, -, -, -, e0, e1, -, -, -, -, -⟩ := index1 t
  funext j
  show (V c (Pipeline.arrRef spec1 2) : S4096x4096.Idx → EReal) (((cfg1.win 2).blk t).view.emb j) = _
  refine congrArg _ (funext fun a => Fin.ext ?_)
  match a with
  | ⟨0, _⟩ => show win1_2.index t (0 : Fin 2) * 4096 + 1 * (j 0).val = (j 0).val; rw [e0]; omega
  | ⟨1, _⟩ => show win1_2.index t (1 : Fin 2) * 4096 + 1 * (j 1).val = (j 1).val; rw [e1]; omega

theorem whole1_3 (c : Dev nD) (t : Fin cfg1.N) :
    (iblk1 V c 3 t : Vec Ideal S4096 .f32) = (V c (Pipeline.arrRef spec1 3) : S4096.Idx → EReal) := by
  obtain ⟨-, -, -, -, -, -, e, -, -, -, -⟩ := index1 t
  funext j
  show (V c (Pipeline.arrRef spec1 3) : S4096.Idx → EReal) (((cfg1.win 3).blk t).view.emb j) = _
  refine congrArg _ (funext fun a => Fin.ext ?_)
  match a with
  | ⟨0, _⟩ => show win1_3.index t (0 : Fin 1) * 4096 + 1 * (j 0).val = (j 0).val; rw [e]; omega

/-- WHAT POINT `t` WRITES BACK into the activation array is block `t` of the layer of the whole arrays. -/
theorem flushed1_4 (c : Dev nD) (t : Fin cfg1.N) :
    (dat1 V c).flushed 4 t = ((cfg1.win 4).blk t).view.read (Elt Ideal) (normA (a := 8192) (mixA (a := 8192) (V c (Pipeline.arrRef spec1 0)) (V c (Pipeline.arrRef spec1 2)) (V c (Pipeline.arrRef spec1 1))) (V c (Pipeline.arrRef spec1 3))) := by
  show (cfg1.win 4).cut (grid1.coords t) ((dat1 V c).after 4 t) = _
  rw [after1_4, out1_4_eq, whole1_2, whole1_3]
  funext j
  obtain ⟨p, q, rfl⟩ : ∃ (p : Fin 128) (q : Fin 4096), j = ix2 p q := ⟨j 0, j 1, eq_ix2 j⟩
  obtain ⟨-, -, -, -, -, -, -, e0, e1, -, -⟩ := index1 t
  have ht : t.val < 64 := Nat.lt_of_lt_of_eq t.isLt (show cfg1.N = 64 from N_1)
  have hemb : ((cfg1.win 4).blk t).view.emb (ix2 p q) = (ix2 (⟨t.val * 128 + p.val, by omega⟩ : Fin 8192) q : S8192x4096.Idx) :=
    funext fun a => Fin.ext (by
      match a with
      | ⟨0, _⟩ => show win1_4.index t (0 : Fin 2) * 128 + 1 * p.val = t.val * 128 + p.val; rw [e0]; omega
      | ⟨1, _⟩ => show win1_4.index t (1 : Fin 2) * 4096 + 1 * q.val = q.val; rw [e1]; omega)
  show normA (a := 128) (mixA (a := 128) (iblk1 V c 0 t) _ (iblk1 V c 1 t)) _ (ix2 p q)
    = normA (a := 8192) (mixA (a := 8192) _ _ _) _ (((cfg1.win 4).blk t).view.emb (ix2 p q))
  rw [hemb]
  exact normA_rows _ _ _ p _ (fun k' => mixA_rows _ _ _ _ _ p _ (fun k => rows1_0 V c t p k _ rfl) k' (rows1_1 V c t p k' _ rfl)) q

theorem mem_blk1_4 (t : Fin cfg1.N) (i : S8192x4096.Idx) :
    i ∈ ((cfg1.win 4).blk t).view.set ↔ ∀ a : Fin 2, win1_4.index t a * S128x4096.size a ≤ (i a).val
      ∧ (i a).val < win1_4.index t a * S128x4096.size a + S128x4096.size a := by
  show i ∈ ((View.whole main_v4_0).slice (win1_4.rect t)).set ↔ _
  rw [View.set_slice_whole, Rect.mem_set_unit]
  exact Iff.rfl

theorem covered1_4 (i : S8192x4096.Idx) : ∃ t : Fin cfg1.N, (cfg1.win 4).flush t = true ∧ i ∈ ((cfg1.win 4).blk t).view.set := by
  have h0 : (i 0).val < 8192 := (i 0).isLt
  have h1 : (i 1).val < 4096 := (i 1).isLt
  obtain ⟨t, ht⟩ : ∃ t : Fin cfg1.N, t.val = (i 0).val / 128 := ⟨⟨(i 0).val / 128, by rw [show cfg1.N = 64 from N_1]; omega⟩, rfl⟩
  obtain ⟨-, -, -, -, -, -, -, e0, e1, -, -⟩ := index1 t
  refine ⟨t, flush1_4 t, ?_⟩
  rw [mem_blk1_4]
  intro a
  match a with
  | ⟨0, _⟩ => show win1_4.index t (0 : Fin 2) * 128 ≤ (i 0).val ∧ (i 0).val < win1_4.index t (0 : Fin 2) * 128 + 128; rw [e0, ht]; omega
  | ⟨1, _⟩ => show win1_4.index t (1 : Fin 2) * 4096 ≤ (i 1).val ∧ (i 1).val < win1_4.index t (1 : Fin 2) * 4096 + 4096; rw [e1]; omega

/-- REGION 1's activation array ends holding the layer of the arrays as the region found them. -/
theorem final1_4 (c : Dev nD) : (dat1 V c).arrAt 4 cfg1.N = normA (a := 8192) (mixA (a := 8192) (V c (Pipeline.arrRef spec1 0)) (V c (Pipeline.arrRef spec1 2)) (V c (Pipeline.arrRef spec1 1))) (V c (Pipeline.arrRef spec1 3)) :=
  (dat1 V c).arrAt_eq_of_cover 4 _ (fun t _ => flushed1_4 V c t) covered1_4

/-- WHAT POINT `t` WRITES BACK into the residual array is block `t` of the layer of the whole arrays. -/
theorem flushed1_5 (c : Dev nD) (t : Fin cfg1.N) :
    (dat1 V c).flushed 5 t = ((cfg1.win 5).blk t).view.read (Elt Ideal) (mixA (a := 8192) (V c (Pipeline.arrRef spec1 0)) (V c (Pipeline.arrRef spec1 2)) (V c (Pipeline.arrRef spec1 1))) := by
  show (cfg1.win 5).cut (grid1.coords t) ((dat1 V c).after 5 t) = _
  rw [after1_5, out1_5_eq, whole1_2]
  funext j
  obtain ⟨p, q, rfl⟩ : ∃ (p : Fin 128) (q : Fin 4096), j = ix2 p q := ⟨j 0, j 1, eq_ix2 j⟩
  obtain ⟨-, -, -, -, -, -, -, -, -, e0, e1⟩ := index1 t
  have ht : t.val < 64 := Nat.lt_of_lt_of_eq t.isLt (show cfg1.N = 64 from N_1)
  have hemb : ((cfg1.win 5).blk t).view.emb (ix2 p q) = (ix2 (⟨t.val * 128 + p.val, by omega⟩ : Fin 8192) q : S8192x4096.Idx) :=
    funext fun a => Fin.ext (by
      match a with
      | ⟨0, _⟩ => show win1_5.index t (0 : Fin 2) * 128 + 1 * p.val = t.val * 128 + p.val; rw [e0]; omega
      | ⟨1, _⟩ => show win1_5.index t (1 : Fin 2) * 4096 + 1 * q.val = q.val; rw [e1]; omega)
  show mixA (a := 128) (iblk1 V c 0 t) _ (iblk1 V c 1 t) (ix2 p q)
    = mixA (a := 8192) _ _ _ (((cfg1.win 5).blk t).view.emb (ix2 p q))
  rw [hemb]
  exact mixA_rows _ _ _ _ _ p _ (fun k => rows1_0 V c t p k _ rfl) q (rows1_1 V c t p q _ rfl)

theorem mem_blk1_5 (t : Fin cfg1.N) (i : S8192x4096.Idx) :
    i ∈ ((cfg1.win 5).blk t).view.set ↔ ∀ a : Fin 2, win1_5.index t a * S128x4096.size a ≤ (i a).val
      ∧ (i a).val < win1_5.index t a * S128x4096.size a + S128x4096.size a := by
  show i ∈ ((View.whole main_v4_1).slice (win1_5.rect t)).set ↔ _
  rw [View.set_slice_whole, Rect.mem_set_unit]
  exact Iff.rfl

theorem covered1_5 (i : S8192x4096.Idx) : ∃ t : Fin cfg1.N, (cfg1.win 5).flush t = true ∧ i ∈ ((cfg1.win 5).blk t).view.set := by
  have h0 : (i 0).val < 8192 := (i 0).isLt
  have h1 : (i 1).val < 4096 := (i 1).isLt
  obtain ⟨t, ht⟩ : ∃ t : Fin cfg1.N, t.val = (i 0).val / 128 := ⟨⟨(i 0).val / 128, by rw [show cfg1.N = 64 from N_1]; omega⟩, rfl⟩
  obtain ⟨-, -, -, -, -, -, -, -, -, e0, e1⟩ := index1 t
  refine ⟨t, flush1_5 t, ?_⟩
  rw [mem_blk1_5]
  intro a
  match a with
  | ⟨0, _⟩ => show win1_5.index t (0 : Fin 2) * 128 ≤ (i 0).val ∧ (i 0).val < win1_5.index t (0 : Fin 2) * 128 + 128; rw [e0, ht]; omega
  | ⟨1, _⟩ => show win1_5.index t (1 : Fin 2) * 4096 ≤ (i 1).val ∧ (i 1).val < win1_5.index t (1 : Fin 2) * 4096 + 4096; rw [e1]; omega

/-- REGION 1's residual array ends holding the layer of the arrays as the region found them. -/
theorem final1_5 (c : Dev nD) : (dat1 V c).arrAt 5 cfg1.N = mixA (a := 8192) (V c (Pipeline.arrRef spec1 0)) (V c (Pipeline.arrRef spec1 2)) (V c (Pipeline.arrRef spec1 1)) :=
  (dat1 V c).arrAt_eq_of_cover 5 _ (fun t _ => flushed1_5 V c t) covered1_5

/-! # Region 2 -/

/-- What the body leaves in its output block: the residual is the activation block through the weight plus the residual block,
    the activation that residual normalised with the gain. -/
theorem out2_4_eq (x0 : Vec Ideal S128x4096 .bf16) (x1 : Vec Ideal S128x4096 .f32) (x2 : Vec Ideal S4096x4096 .bf16) (x3 : Vec Ideal S4096 .f32) :
    out2_4 (F := Ideal) x0 x1 x2 x3 = normA (a := 128) (mixA (a := 128) x0 x2 x1) x3 := by
  unfold out2_4
  rw [View.canon_unit_zero zeros2]
  simp only [View.ld_unit_zero (S := S128x4096) zeros2, View.ld_unit_zero (S := S4096) zeros1, View.ld_unit_zero (S := S4096x4096) zeros2]
  exact k2_pay1_eq x0 x2 x1 x3

theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row `p` of the activation block, and of the residual block, at point `t` is row `128·t + p` of its array. -/
theorem rows2_0 (c : Dev nD) (t : Fin cfg2.N) (p : Fin 128) (k : Fin 4096) (P : Fin 8192) (hP : P.val = t.val * 128 + p.val) :
    (iblk2 V c 0 t : Vec Ideal S128x4096 .bf16) (ix2 p k) = (V c (Pipeline.arrRef spec2 0) : S8192x4096.Idx → EReal) (ix2 P k) := by
  obtain ⟨e0, e1, -, -, -, -, -, -, -⟩ := index2 t
  show (V c (Pipeline.arrRef spec2 0) : S8192x4096.Idx → EReal) (((cfg2.win 0).blk t).view.emb (ix2 p k)) = _
  refine congrArg _ (funext fun a => Fin.ext ?_)
  match a with
  | ⟨0, _⟩ => show win2_0.index t (0 : Fin 2) * 128 + 1 * p.val = P.val; rw [e0, hP]; omega
  | ⟨1, _⟩ => show win2_0.index t (1 : Fin 2) * 4096 + 1 * k.val = k.val; rw [e1]; omega

theorem rows2_1 (c : Dev nD) (t : Fin cfg2.N) (p : Fin 128) (k : Fin 4096) (P : Fin 8192) (hP : P.val = t.val * 128 + p.val) :
    (iblk2 V c 1 t : Vec Ideal S128x4096 .f32) (ix2 p k) = (V c (Pipeline.arrRef spec2 1) : S8192x4096.Idx → EReal) (ix2 P k) := by
  obtain ⟨-, -, e0, e1, -, -, -, -, -⟩ := index2 t
  show (V c (Pipeline.arrRef spec2 1) : S8192x4096.Idx → EReal) (((cfg2.win 1).blk t).view.emb (ix2 p k)) = _
  refine congrArg _ (funext fun a => Fin.ext ?_)
  match a with
  | ⟨0, _⟩ => show win2_1.index t (0 : Fin 2) * 128 + 1 * p.val = P.val; rw [e0, hP]; omega
  | ⟨1, _⟩ => show win2_1.index t (1 : Fin 2) * 4096 + 1 * k.val = k.val; rw [e1]; omega

/-- The weight and the gain vector come whole. -/
theorem whole2_2 (c : Dev nD) (t : Fin cfg2.N) :
    (iblk2 V c 2 t : Vec Ideal S4096x4096 .bf16) = (V c (Pipeline.arrRef spec2 2) : S4096x4096.Idx → EReal) := by
  obtain ⟨-, -, -, -, e0, e1, -, -, -⟩ := index2 t
  funext j
  show (V c (Pipeline.arrRef spec2 2) : S4096x4096.Idx → EReal) (((cfg2.win 2).blk t).view.emb j) = _
  refine congrArg _ (funext fun a => Fin.ext ?_)
  match a with
  | ⟨0, _⟩ => show win2_2.index t (0 : Fin 2) * 4096 + 1 * (j 0).val = (j 0).val; rw [e0]; omega
  | ⟨1, _⟩ => show win2_2.index t (1 : Fin 2) * 4096 + 1 * (j 1).val = (j 1).val; rw [e1]; omega

theorem whole2_3 (c : Dev nD) (t : Fin cfg2.N) :
    (iblk2 V c 3 t : Vec Ideal S4096 .f32) = (V c (Pipeline.arrRef spec2 3) : S4096.Idx → EReal) := by
  obtain ⟨-, -, -, -, -, -, e, -, -⟩ := index2 t
  funext j
  show (V c (Pipeline.arrRef spec2 3) : S4096.Idx → EReal) (((cfg2.win 3).blk t).view.emb j) = _
  refine congrArg _ (funext fun a => Fin.ext ?_)
  match a with
  | ⟨0, _⟩ => show win2_3.index t (0 : Fin 1) * 4096 + 1 * (j 0).val = (j 0).val; rw [e]; omega

/-- WHAT POINT `t` WRITES BACK into the activation array is block `t` of the layer of the whole arrays. -/
theorem flushed2_4 (c : Dev nD) (t : Fin cfg2.N) :
    (dat2 V c).flushed 4 t = ((cfg2.win 4).blk t).view.read (Elt Ideal) (normA (a := 8192) (mixA (a := 8192) (V c (Pipeline.arrRef spec2 0)) (V c (Pipeline.arrRef spec2 2)) (V c (Pipeline.arrRef spec2 1))) (V c (Pipeline.arrRef spec2 3))) := by
  show (cfg2.win 4).cut (grid2.coords t) ((dat2 V c).after 4 t) = _
  rw [after2_4, out2_4_eq, whole2_2, whole2_3]
  funext j
  obtain ⟨p, q, rfl⟩ : ∃ (p : Fin 128) (q : Fin 4096), j = ix2 p q := ⟨j 0, j 1, eq_ix2 j⟩
  obtain ⟨-, -, -, -, -, -, -, e0, e1⟩ := index2 t
  have ht : t.val < 64 := Nat.lt_of_lt_of_eq t.isLt (show cfg2.N = 64 from N_2)
  have hemb : ((cfg2.win 4).blk t).view.emb (ix2 p q) = (ix2 (⟨t.val * 128 + p.val, by omega⟩ : Fin 8192) q : S8192x4096.Idx) :=
    funext fun a => Fin.ext (by
      match a with
      | ⟨0, _⟩ => show win2_4.index t (0 : Fin 2) * 128 + 1 * p.val = t.val * 128 + p.val; rw [e0]; omega
      | ⟨1, _⟩ => show win2_4.index t (1 : Fin 2) * 4096 + 1 * q.val = q.val; rw [e1]; omega)
  show normA (a := 128) (mixA (a := 128) (iblk2 V c 0 t) _ (iblk2 V c 1 t)) _ (ix2 p q)
    = normA (a := 8192) (mixA (a := 8192) _ _ _) _ (((cfg2.win 4).blk t).view.emb (ix2 p q))
  rw [hemb]
  exact normA_rows _ _ _ p _ (fun k' => mixA_rows _ _ _ _ _ p _ (fun k => rows2_0 V c t p k _ rfl) k' (rows2_1 V c t p k' _ rfl)) q

theorem mem_blk2_4 (t : Fin cfg2.N) (i : S8192x4096.Idx) :
    i ∈ ((cfg2.win 4).blk t).view.set ↔ ∀ a : Fin 2, win2_4.index t a * S128x4096.size a ≤ (i a).val
      ∧ (i a).val < win2_4.index t a * S128x4096.size a + S128x4096.size a := by
  show i ∈ ((View.whole main_v5).slice (win2_4.rect t)).set ↔ _
  rw [View.set_slice_whole, Rect.mem_set_unit]
  exact Iff.rfl

theorem covered2_4 (i : S8192x4096.Idx) : ∃ t : Fin cfg2.N, (cfg2.win 4).flush t = true ∧ i ∈ ((cfg2.win 4).blk t).view.set := by
  have h0 : (i 0).val < 8192 := (i 0).isLt
  have h1 : (i 1).val < 4096 := (i 1).isLt
  obtain ⟨t, ht⟩ : ∃ t : Fin cfg2.N, t.val = (i 0).val / 128 := ⟨⟨(i 0).val / 128, by rw [show cfg2.N = 64 from N_2]; omega⟩, rfl⟩
  obtain ⟨-, -, -, -, -, -, -, e0, e1⟩ := index2 t
  refine ⟨t, flush2_4 t, ?_⟩
  rw [mem_blk2_4]
  intro a
  match a with
  | ⟨0, _⟩ => show win2_4.index t (0 : Fin 2) * 128 ≤ (i 0).val ∧ (i 0).val < win2_4.index t (0 : Fin 2) * 128 + 128; rw [e0, ht]; omega
  | ⟨1, _⟩ => show win2_4.index t (1 : Fin 2) * 4096 ≤ (i 1).val ∧ (i 1).val < win2_4.index t (1 : Fin 2) * 4096 + 4096; rw [e1]; omega

/-- REGION 2's result array ends holding the layer of the arrays as the region found them. -/
theorem final2_4 (c : Dev nD) : (dat2 V c).arrAt 4 cfg2.N = normA (a := 8192) (mixA (a := 8192) (V c (Pipeline.arrRef spec2 0)) (V c (Pipeline.arrRef spec2 2)) (V c (Pipeline.arrRef spec2 1))) (V c (Pipeline.arrRef spec2 3)) :=
  (dat2 V c).arrAt_eq_of_cover 4 _ (fun t _ => flushed2_4 V c t) covered2_4

end Cert.KernelIdeal.Arrays

end
-- ==== Proof.Chain.lean ====
/-
  The result buffer's final contents as the chain of layers of the arguments.

  The contents a region finds are what the host stretch and the earlier regions left.  An argument is written by no host
  operation and by no region, so at every boundary it holds its launch contents.  The three weights' copies in the
  narrower float format are, on the extended reals, the weights.  Region 0 leaves the first activation and residual,
  region 1 finds them and leaves the second pair, region 2 finds those and leaves the result: each by the statement of
  the region for ANY entry contents, at the entry contents the run gives it.
-/
import proofs.«149822_j45354854645975_2_alg».proof.Proof.Gen.KernelIdeal.Frame
import proofs.«149822_j45354854645975_2_alg».proof.Proof.Arrays
import proofs.«149822_j45354854645975_2_alg».proof.Proof.Layers
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.ValueIdx Idealize.ShloMosaic.TcCoe Idealize.SL.Sem
open Idealize.ShloMosaic.StableHlo
open Idealize.ShloMosaic.Pipeline (Dat)
open Cert.Layers Cert.KernelIdeal.Arrays

variable (m : (ℓ : Loc nD τ sig) → Buf (Elt Ideal) ℓ) (ρ : Dev nD → PrngReg)

/-! ## The arguments at the boundaries where a region reads them -/

theorem entry0_x (c : Dev nD) : V1 m ρ c main_arg0 = (m ((c : Thread nD τ).loc main_arg0)) :=
  ((W2_arr m ρ c 0).trans (((dat0 (V1 m ρ) c).arrAt_in 0 rfl _).trans (A_eq0 (V1 m ρ) c 0))).symm.trans
    ((W3_of_ne m ρ c main_arg0 (by decide)).symm.trans ((W4_of_ne m ρ c main_arg0 (by decide)).symm.trans (W4_main_arg0 m ρ c)))

theorem entry0_g0 (c : Dev nD) : V1 m ρ c main_arg1 = (m ((c : Thread nD τ).loc main_arg1)) :=
  ((W2_arr m ρ c 1).trans (((dat0 (V1 m ρ) c).arrAt_in 1 rfl _).trans (A_eq0 (V1 m ρ) c 1))).symm.trans
    ((W3_of_ne m ρ c main_arg1 (by decide)).symm.trans ((W4_of_ne m ρ c main_arg1 (by decide)).symm.trans (W4_main_arg1 m ρ c)))

theorem entry0_g1 (c : Dev nD) : V1 m ρ c main_arg2 = (m ((c : Thread nD τ).loc main_arg2)) :=
  ((W2_arr m ρ c 3).trans (((dat0 (V1 m ρ) c).arrAt_in 3 rfl _).trans (A_eq0 (V1 m ρ) c 3))).symm.trans
    ((W3_of_ne m ρ c main_arg2 (by decide)).symm.trans ((W4_of_ne m ρ c main_arg2 (by decide)).symm.trans (W4_main_arg2 m ρ c)))

theorem entry1_g2 (c : Dev nD) : V2 m ρ c main_arg3 = (m ((c : Thread nD τ).loc main_arg3)) :=
  ((W3_arr m ρ c 3).trans (((dat1 (V2 m ρ) c).arrAt_in 3 rfl _).trans (A_eq1 (V2 m ρ) c 3))).symm.trans
    ((W4_of_ne m ρ c main_arg3 (by decide)).symm.trans (W4_main_arg3 m ρ c))

theorem entry2_g3 (c : Dev nD) : V3 m ρ c main_arg4 = (m ((c : Thread nD τ).loc main_arg4)) :=
  ((W4_arr m ρ c 3).trans (((dat2 (V3 m ρ) c).arrAt_in 3 rfl _).trans (A_eq2 (V3 m ρ) c 3))).symm.trans (W4_main_arg4 m ρ c)

/-! ## The weights' copies are the weights -/

theorem entry0_w0 (c : Dev nD) : (V1 m ρ c main_v0 : S4096x4096.Idx → EReal) = (m ((c : Thread nD τ).loc main_arg5)) := by
  show StableHlo.after hostOps0 (W0 m ρ c) (Proc.devRef .tc main_v0) = _
  after_results
  rfl

theorem entry1_w1 (c : Dev nD) : (V2 m ρ c main_v1 : S4096x4096.Idx → EReal) = (m ((c : Thread nD τ).loc main_arg6)) := by
  refine (W2_of_ne m ρ c main_v1 (by decide)).trans ?_
  show StableHlo.after hostOps0 (W0 m ρ c) (Proc.devRef .tc main_v1) = _
  after_results
  rfl

theorem entry2_w2 (c : Dev nD) : (V3 m ρ c main_v2 : S4096x4096.Idx → EReal) = (m ((c : Thread nD τ).loc main_arg7)) := by
  refine (W3_of_ne m ρ c main_v2 (by decide)).trans ((W2_of_ne m ρ c main_v2 (by decide)).trans ?_)
  show StableHlo.after hostOps0 (W0 m ρ c) (Proc.devRef .tc main_v2) = _
  after_results
  rfl

/-! ## What each region leaves for the next -/

/-- Region 1 finds the first residual … -/
theorem entry1_resid (c : Dev nD) :
    V2 m ρ c main_v3_1 = resid1 (m ((c : Thread nD τ).loc main_arg0)) (m ((c : Thread nD τ).loc main_arg1)) (m ((c : Thread nD τ).loc main_arg5)) := by
  refine (W2_arr m ρ c 5).trans ((final0_5 (V1 m ρ) c).trans ?_)
  show firstResid (a := 8192) (V1 m ρ c main_arg0) (V1 m ρ c main_arg1) (V1 m ρ c main_v0 : S4096x4096.Idx → EReal) = _
  rw [entry0_x, entry0_g0, entry0_w0]
  rfl

/-- … and the first activation. -/
theorem entry1_act (c : Dev nD) :
    (V2 m ρ c main_v3_0 : S8192x4096.Idx → EReal)
      = act1 (m ((c : Thread nD τ).loc main_arg0)) (m ((c : Thread nD τ).loc main_arg1)) (m ((c : Thread nD τ).loc main_arg2)) (m ((c : Thread nD τ).loc main_arg5)) := by
  refine (W2_arr m ρ c 4).trans ((final0_4 (V1 m ρ) c).trans ?_)
  show normA (a := 8192) (firstResid (a := 8192) (V1 m ρ c main_arg0) (V1 m ρ c main_arg1) (V1 m ρ c main_v0 : S4096x4096.Idx → EReal))
      (V1 m ρ c main_arg2) = _
  rw [entry0_x, entry0_g0, entry0_w0, entry0_g1]
  rfl

/-- Region 2 finds the second residual … -/
theorem entry2_resid (c : Dev nD) :
    V3 m ρ c main_v4_1 = resid2 (m ((c : Thread nD τ).loc main_arg0)) (m ((c : Thread nD τ).loc main_arg1)) (m ((c : Thread nD τ).loc main_arg2)) (m ((c : Thread nD τ).loc main_arg5)) (m ((c : Thread nD τ).loc main_arg6)) := by
  refine (W3_arr m ρ c 5).trans ((final1_5 (V2 m ρ) c).trans ?_)
  show mixA (a := 8192) (V2 m ρ c main_v3_0 : S8192x4096.Idx → EReal) (V2 m ρ c main_v1 : S4096x4096.Idx → EReal) (V2 m ρ c main_v3_1) = _
  rw [entry1_act, entry1_w1, entry1_resid]
  rfl

/-- … and the second activation. -/
theorem entry2_act (c : Dev nD) :
    (V3 m ρ c main_v4_0 : S8192x4096.Idx → EReal)
      = act2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (W3_arr m ρ c 4).trans ((final1_4 (V2 m ρ) c).trans ?_)
  show normA (a := 8192) (mixA (a := 8192) (V2 m ρ c main_v3_0 : S8192x4096.Idx → EReal) (V2 m ρ c main_v1 : S4096x4096.Idx → EReal) (V2 m ρ c main_v3_1))
      (V2 m ρ c main_arg3) = _
  rw [entry1_act, entry1_w1, entry1_resid, entry1_g2]
  rfl

/-- THE RESULT BUFFER after the last region: the chain of layers of the arguments' launch contents. -/
theorem result_eq (c : Dev nD) :
    W4 m ρ c (Proc.devRef .tc main_v5)
      = result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 4).trans ((final2_4 (V3 m ρ) c).trans ?_)
  show normA (a := 8192) (mixA (a := 8192) (V3 m ρ c main_v4_0 : S8192x4096.Idx → EReal) (V3 m ρ c main_v2 : S4096x4096.Idx → EReal) (V3 m ρ c main_v4_1))
      (V3 m ρ c main_arg4) = _
  rw [entry2_act, entry2_w2, entry2_resid, entry2_g3]
  rfl

end Cert.KernelIdeal.Chain

end
-- ==== Proof.RefStages.lean ====
/-
  The reference, stage by stage, on the extended reals.

  The reference applies four times the same normalisation to a whole array of 8192 rows — the row sums of squares by a
  host reduction, divided by 4096, plus ε, inverse square root, repeated along the rows, times the entry, times the
  gain repeated down the rows — and three times the same product with a square weight plus a residual.  Each is stated
  once as a function of whole arrays and read at row `p`, column `q`: they are `normA` and `mixA` on 8192 rows.  The
  reference's result is then the chain of these, by the definitions of its stages.
-/
import proofs.«149822_j45354854645975_2_alg».proof.Proof.Gen.ReferenceIdeal.Read
import proofs.«149822_j45354854645975_2_alg».proof.Proof.Layers
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.ValueIdx Idealize.ShloMosaic.TcCoe Idealize.ShloMosaic.StableHlo
open Cert.Layers

/-! ## The host's row sum, product, normalisation and mix -/

/-- The host's sum along the rows from the zero word: row `p`'s sum. -/
theorem hostRowSum_apply (B : FVec Ideal S8192x4096 .f32) (p : Fin 8192) :
    Host.reduceAdd (F := Ideal) B (constant S_ .f32 0x00000000#32) reducesTo_S8192x4096_S8192_d1 h_S_ (ix1 p)
      = ∑ k : Fin 4096, B (ix2 p k) := by
  simp only [Host.reduceAdd, Ideal.hostReduceAdd_def]
  rw [Ideal.hostReduceAdd_single reducesTo_S8192x4096_S8192_d1 (by decide)]
  rw [show (constant (F := Ideal) S_ .f32 0x00000000#32) (Shape.Idx.first h_S_) = (0 : EReal) from Ideal.ofBits_zero_f32, zero_add]
  refine Finset.sum_congr rfl fun k _ => ?_
  exact congrArg B (funext fun a => Fin.ext (by match a with | ⟨0, _⟩ => rfl | ⟨1, _⟩ => rfl))

/-- The host's product of an 8192-row array with a square weight: entry `(p, q)` is `∑ₖ Y[p, k] · w[k, q]`. -/
theorem hostProduct_apply (Y : FVec Ideal S8192x4096 .f32) (w : FVec Ideal S4096x4096 .f32) (p : Fin 8192) (q : Fin 4096) :
    Host.dotGeneral (F := Ideal) dot_S8192x4096_S4096x4096_S8192x4096_1_0_0_1_n_n none Y w (ix2 p q)
      = ∑ k : Fin 4096, Y (ix2 p k) * w (ix2 k q) := by
  simp only [Host.dotGeneral]
  rw [Ideal.dotGeneral_apply, ← Equiv.sum_comp (contrEquiv1 dot_S8192x4096_S4096x4096_S8192x4096_1_0_0_1_n_n 4096 rfl rfl).symm]
  refine Finset.sum_congr rfl fun k _ => ?_
  have hk := contrEquiv1_symm_val dot_S8192x4096_S4096x4096_S8192x4096_1_0_0_1_n_n 4096 rfl rfl k
  have el : dot_S8192x4096_S4096x4096_S8192x4096_1_0_0_1_n_n.lhsIdx (ix2 p q)
      ((contrEquiv1 dot_S8192x4096_S4096x4096_S8192x4096_1_0_0_1_n_n 4096 rfl rfl).symm k) = ix2 p k := funext fun a => Fin.ext (by
    match a with
    | ⟨0, _⟩ => exact lhs_main_v14_0 _ _
    | ⟨1, _⟩ => exact (lhs_main_v14_1 _ _).trans hk)
  have er : dot_S8192x4096_S4096x4096_S8192x4096_1_0_0_1_n_n.rhsIdx (ix2 p q)
      ((contrEquiv1 dot_S8192x4096_S4096x4096_S8192x4096_1_0_0_1_n_n 4096 rfl rfl).symm k) = ix2 k q := funext fun a => Fin.ext (by
    match a with
    | ⟨0, _⟩ => exact (rhs_main_v14_0 _ _).trans hk
    | ⟨1, _⟩ => exact rhs_main_v14_1 _ _)
  rw [el, er]

/-- The host's normalisation of a whole array `A` with the gain vector `g`. -/
def hostNorm (A : FVec Ideal S8192x4096 .f32) (g : FVec Ideal S4096 .f32) : FVec Ideal S8192x4096 .f32 :=
  mulf (mulf A (broadcastInDim S8192x4096 ![0, 1] bcast_S8192x1_S8192x4096_0_1 (Host.rsqrt (addf (Host.divf
      (broadcastInDim S8192x1 ![0] bcast_S8192_S8192x1_0
        (Host.reduceAdd (mulf A A) (constant S_ .f32 0x00000000#32) reducesTo_S8192x4096_S8192_d1 h_S_))
      (broadcastInDim S8192x1 ![] bcast_S_S8192x1 (constant S_ .f32 0x45800000#32)))
      (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

/-- The host's product with a square weight plus a residual array. -/
def hostMix (Y : FVec Ideal S8192x4096 .f32) (w : FVec Ideal S4096x4096 .f32) (R : FVec Ideal S8192x4096 .f32) :
    FVec Ideal S8192x4096 .f32 :=
  addf (Host.dotGeneral dot_S8192x4096_S4096x4096_S8192x4096_1_0_0_1_n_n none Y w) R

theorem hostNorm_apply (A : FVec Ideal S8192x4096 .f32) (g : FVec Ideal S4096 .f32) (p : Fin 8192) (q : Fin 4096) :
    hostNorm A g (ix2 p q) = normA (a := 8192) A g (ix2 p q) := by
  unfold hostNorm
  rw [normA_ix2, mulf_apply, mulf_apply]
  rw [broadcastInDim_apply _ bcast_S1x4096_S8192x4096_0_1 _ (ix2 p q) (ix2 (0 : Fin 1) q) (fun a => match a with
      | ⟨0, _⟩ => by show 0 = if (1 : Nat) = 1 then 0 else p.val; rw [if_pos rfl]
      | ⟨1, _⟩ => by show q.val = if (4096 : Nat) = 1 then 0 else q.val; rw [if_neg (by decide)]),
    broadcastInDim_apply _ bcast_S4096_S1x4096_1 g (ix2 (0 : Fin 1) q) (ix1 q) (fun a => match a with
      | ⟨0, _⟩ => by show q.val = if (4096 : Nat) = 1 then 0 else q.val; rw [if_neg (by decide)]),
    broadcastInDim_apply _ bcast_S8192x1_S8192x4096_0_1 _ (ix2 p q) (ix2 p (0 : Fin 1)) (fun a => match a with
      | ⟨0, _⟩ => by show p.val = if (8192 : Nat) = 1 then 0 else p.val; rw [if_neg (by decide)]
      | ⟨1, _⟩ => by show 0 = if (1 : Nat) = 1 then 0 else q.val; rw [if_pos rfl])]
  refine congrArg (fun s => A (ix2 p q) * s * g (ix1 q)) ?_
  show Ideal.rsqrt (Ideal.div
      (broadcastInDim S8192x1 ![0] bcast_S8192_S8192x1_0
        (Host.reduceAdd (F := Ideal) (mulf A A) (constant S_ .f32 0x00000000#32) reducesTo_S8192x4096_S8192_d1 h_S_) (ix2 p (0 : Fin 1)))
      (broadcastInDim S8192x1 ![] bcast_S_S8192x1 (constant (F := Ideal) S_ .f32 0x45800000#32) (ix2 p (0 : Fin 1)))
      + broadcastInDim S8192x1 ![] bcast_S_S8192x1 (constant (F := Ideal) S_ .f32 0x358637BD#32) (ix2 p (0 : Fin 1)))
    = invRms fun k => A (ix2 p k)
  rw [broadcastInDim_apply _ bcast_S8192_S8192x1_0 _ (ix2 p (0 : Fin 1)) (ix1 p) (fun a => match a with
      | ⟨0, _⟩ => by show p.val = if (8192 : Nat) = 1 then 0 else p.val; rw [if_neg (by decide)]),
    broadcastInDim_apply _ bcast_S_S8192x1 (constant (F := Ideal) S_ .f32 0x45800000#32) (ix2 p (0 : Fin 1)) ix0 (fun a => a.elim0),
    broadcastInDim_apply _ bcast_S_S8192x1 (constant (F := Ideal) S_ .f32 0x358637BD#32) (ix2 p (0 : Fin 1)) ix0 (fun a => a.elim0),
    hostRowSum_apply]
  rfl

theorem hostNorm_eq (A : FVec Ideal S8192x4096 .f32) (g : FVec Ideal S4096 .f32) : hostNorm A g = normA (a := 8192) A g := by
  funext j
  obtain ⟨p, q, rfl⟩ : ∃ (p : Fin 8192) (q : Fin 4096), j = ix2 p q := ⟨j 0, j 1, eq_ix2 j⟩
  exact hostNorm_apply A g p q

theorem hostMix_eq (Y : FVec Ideal S8192x4096 .f32) (w : FVec Ideal S4096x4096 .f32) (R : FVec Ideal S8192x4096 .f32) :
    hostMix Y w R = mixA (a := 8192) Y w R := by
  funext j
  obtain ⟨p, q, rfl⟩ : ∃ (p : Fin 8192) (q : Fin 4096), j = ix2 p q := ⟨j 0, j 1, eq_ix2 j⟩
  unfold hostMix
  rw [mixA_ix2, addf_apply, hostProduct_apply]

/-! ## The reference's stages are these, by their definitions -/

/-- The rectified input. -/
theorem rectified_eq (X : FVec Ideal S8192x4096 .f32) : val_main_v0 (F := Ideal) X = reluA (a := 8192) X := by
  funext i
  rw [val_main_v0_apply, val_main_call0_v0_apply, val_main_call0_cst_apply]
  rfl

theorem act0_def (X : FVec Ideal S8192x4096 .f32) (g0 : FVec Ideal S4096 .f32) :
    val_main_v13 (F := Ideal) X g0 = hostNorm (val_main_v0 (F := Ideal) X) g0 := rfl

theorem resid1_def (X : FVec Ideal S8192x4096 .f32) (g0 : FVec Ideal S4096 .f32) (w0 : FVec Ideal S4096x4096 .f32) :
    val_main_v15 (F := Ideal) X g0 w0 = hostMix (val_main_v13 (F := Ideal) X g0) w0 (val_main_v0 (F := Ideal) X) := rfl

theorem act1_def (X : FVec Ideal S8192x4096 .f32) (g0 g1 : FVec Ideal S4096 .f32) (w0 : FVec Ideal S4096x4096 .f32) :
    val_main_v28 (F := Ideal) X g0 g1 w0 = hostNorm (val_main_v15 (F := Ideal) X g0 w0) g1 := rfl

theorem resid2_def (X : FVec Ideal S8192x4096 .f32) (g0 g1 : FVec Ideal S4096 .f32) (w0 w1 : FVec Ideal S4096x4096 .f32) :
    val_main_v30 (F := Ideal) X g0 g1 w0 w1
      = hostMix (val_main_v28 (F := Ideal) X g0 g1 w0) w1 (val_main_v15 (F := Ideal) X g0 w0) := rfl

theorem act2_def (X : FVec Ideal S8192x4096 .f32) (g0 g1 g2 : FVec Ideal S4096 .f32) (w0 w1 : FVec Ideal S4096x4096 .f32) :
    val_main_v43 (F := Ideal) X g0 g1 g2 w0 w1 = hostNorm (val_main_v30 (F := Ideal) X g0 g1 w0 w1) g2 := rfl

theorem resid3_def (X : FVec Ideal S8192x4096 .f32) (g0 g1 g2 : FVec Ideal S4096 .f32) (w0 w1 w2 : FVec Ideal S4096x4096 .f32) :
    val_main_v45 (F := Ideal) X g0 g1 g2 w0 w1 w2
      = hostMix (val_main_v43 (F := Ideal) X g0 g1 g2 w0 w1) w2 (val_main_v30 (F := Ideal) X g0 g1 w0 w1) := rfl

theorem act3_def (X : FVec Ideal S8192x4096 .f32) (g0 g1 g2 g3 : FVec Ideal S4096 .f32) (w0 w1 w2 : FVec Ideal S4096x4096 .f32) :
    val_main_v58 (F := Ideal) X g0 g1 g2 g3 w0 w1 w2 = hostNorm (val_main_v45 (F := Ideal) X g0 g1 g2 w0 w1 w2) g3 := rfl

/-! ## The chain -/

theorem resid1_eq (X : FVec Ideal S8192x4096 .f32) (g0 : FVec Ideal S4096 .f32) (w0 : FVec Ideal S4096x4096 .f32) :
    val_main_v15 (F := Ideal) X g0 w0 = resid1 X g0 w0 := by
  rw [resid1_def, act0_def, hostNorm_eq, hostMix_eq, rectified_eq]; rfl

theorem act1_eq (X : FVec Ideal S8192x4096 .f32) (g0 g1 : FVec Ideal S4096 .f32) (w0 : FVec Ideal S4096x4096 .f32) :
    val_main_v28 (F := Ideal) X g0 g1 w0 = act1 X g0 g1 w0 := by
  rw [act1_def, hostNorm_eq, resid1_eq]; rfl

theorem resid2_eq (X : FVec Ideal S8192x4096 .f32) (g0 g1 : FVec Ideal S4096 .f32) (w0 w1 : FVec Ideal S4096x4096 .f32) :
    val_main_v30 (F := Ideal) X g0 g1 w0 w1 = resid2 X g0 g1 w0 w1 := by
  rw [resid2_def, hostMix_eq, act1_eq, resid1_eq]; rfl

theorem act2_eq (X : FVec Ideal S8192x4096 .f32) (g0 g1 g2 : FVec Ideal S4096 .f32) (w0 w1 : FVec Ideal S4096x4096 .f32) :
    val_main_v43 (F := Ideal) X g0 g1 g2 w0 w1 = act2 X g0 g1 g2 w0 w1 := by
  rw [act2_def, hostNorm_eq, resid2_eq]; rfl

theorem resid3_eq (X : FVec Ideal S8192x4096 .f32) (g0 g1 g2 : FVec Ideal S4096 .f32) (w0 w1 w2 : FVec Ideal S4096x4096 .f32) :
    val_main_v45 (F := Ideal) X g0 g1 g2 w0 w1 w2 = resid3 X g0 g1 g2 w0 w1 w2 := by
  rw [resid3_def, hostMix_eq, act2_eq, resid2_eq]; rfl

/-- THE REFERENCE'S RESULT is the chain of layers of its arguments. -/
theorem result_eq (X : FVec Ideal S8192x4096 .f32) (g0 g1 g2 g3 : FVec Ideal S4096 .f32) (w0 w1 w2 : FVec Ideal S4096x4096 .f32) :
    val_main_v58 (F := Ideal) X g0 g1 g2 g3 w0 w1 w2 = result X g0 g1 g2 g3 w0 w1 w2 := by
  rw [act3_def, hostNorm_eq, resid3_eq]; rfl

end Cert.ReferenceIdeal.Stages

end
-- ==== Proof.lean ====
/-
  A residual stack of three layers on 8192 rows of 4096 entries, fused into three kernels, against its plain reference.

  Both programs rectify the input, normalise each row by its root-mean-square with a gain, and then three times multiply
  by a square weight, add the running residual, and normalise the new residual with the next gain; the result is the last
  normalised residual.  The kernels do this on blocks of 128 rows — the first fuses the rectifier and the first
  normalisation into its product, the last never stores its residual — with the activations and weights kept in a
  narrower float format between the kernels.  On the extended reals a change of format is the identity, a product into a
  zero accumulator and the host's product are the same sum, and a reduction along a row and the host's reduction are the
  same sum; every entry of every layer depends on one row of its matrix operands, so the layers of the blocks are the
  blocks of the layers.  Both results are therefore ONE function, `Cert.Layers.result`, of the eight arguments: no law of
  arithmetic beyond that is used, and the precondition is never opened.

  The frames are the generated ones (the reference's is its generated run with the result dropped); the ideal pass rewrote
  nothing, so there is nothing to preserve.
-/
import proofs.«149822_j45354854645975_2_alg».proof.Defs
import proofs.«149822_j45354854645975_2_alg».proof.Proof.Gen.Kernel
import proofs.«149822_j45354854645975_2_alg».proof.Proof.Gen.Kernel.Skeleton
import proofs.«149822_j45354854645975_2_alg».proof.Proof.Gen.Kernel.Launch
import proofs.«149822_j45354854645975_2_alg».proof.Proof.Gen.Kernel.Points
import proofs.«149822_j45354854645975_2_alg».proof.Proof.Gen.Kernel.Frame
import proofs.«149822_j45354854645975_2_alg».proof.Proof.Gen.KernelIdeal
import proofs.«149822_j45354854645975_2_alg».proof.Proof.Gen.KernelIdeal.Skeleton
import proofs.«149822_j45354854645975_2_alg».proof.Proof.Gen.KernelIdeal.Launch
import proofs.«149822_j45354854645975_2_alg».proof.Proof.Gen.KernelIdeal.Points
import proofs.«149822_j45354854645975_2_alg».proof.Proof.Gen.KernelIdeal.Frame
import proofs.«149822_j45354854645975_2_alg».proof.Proof.Gen.ReferenceIdeal
import proofs.«149822_j45354854645975_2_alg».proof.Proof.Gen.ReferenceIdeal.Read
import proofs.«149822_j45354854645975_2_alg».proof.Proof.Gen.Pre_finite_inputs
import proofs.«149822_j45354854645975_2_alg».proof.Proof.KernelRun
import proofs.«149822_j45354854645975_2_alg».proof.Proof.Chain
import proofs.«149822_j45354854645975_2_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernels' result buffer ends at the chain of layers of the arguments (the run through the
    three regions, each region's arrays read for any entry contents), and so does the reference's result (its stages):
    one function of arguments that agree. -/
theorem algebraic : Cert.algebraic_KernelIdeal_ReferenceIdeal := by
  intro m ρ m' ρ' _ hagree
  refine ⟨fun c => Cert.Layers.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, Cert.ReferenceIdeal.Stages.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
